-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S400000x512 : S_.BroadcastsInDim S400000x512 (![] : Fin 0 → Fin S400000x512.rank)
  reducesTo_S400000x512_S_d0_1 : S400000x512.ReducesTo [0, 1] S_
  h_S_ : 0 < S_.numel
  bcast_S_S25000x512 : S_.BroadcastsInDim S25000x512 (![] : Fin 0 → Fin S25000x512.rank)
  reducesTo_S25000x512_S_d0_1 : S25000x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512x512 .f32) (main_arg6 : FVec F S512 .f32) (main_arg7 : FVec F S512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S400000x512 .f32) (main_arg1 : FVec F S25000x512 .f32) (main_arg2 : IVec S400000 32) (main_arg3 : FVec F S1024x512 .f32) (main_arg4 : FVec F S512 .f32) (main_arg5 : FVec F S512x512 .f32) (main_arg6 : FVec F S512 .f32) (main_arg7 : FVec F S512 .f32) (main_arg8 : FVec F S512 .f32) : IVec S_ 1 :=
  let main_v0 : FVec F S400000x512 .f32 := Host.absf main_arg0
  let main_cst : FVec F S_ .f32 := constant S_ .f32 0x7F800000#32
  let main_v1 : FVec F S400000x512 .f32 := broadcastInDim S400000x512 ![] bcast_S_S400000x512 main_cst
  let main_v2 : IVec S400000x512 1 := cmpf .olt main_v0 main_v1
  let main_c : IVec S_ 1 := constantI S_ 1 1#1
  let main_v3 : IVec S_ 1 := (fun x v => Host.reduce IntOp.andi x v reducesTo_S400000x512_S_d0_1 h_S_) main_v2 main_c
  let main_v4 : FVec F S25000x512 .f32 := Host.absf main_arg1
  let main_cst_0 : FVec F S_ .f32 := constant S_ .f32 0x7F800000#32
  let main_v5 : FVec F S25000x512 .f32 := broadcastInDim S25000x512 ![] bcast_S_S25000x512 main_cst_0
  let main_v6 : IVec S25000x512 1 := cmpf .olt main_v4 main_v5
  let main_c_1 : IVec S_ 1 := constantI S_ 1 1#1
  let main_v7 : IVec S_ 1 := (fun x v => Host.reduce IntOp.andi x v reducesTo_S25000x512_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S400000x1 : Shape := ⟨2, ![400000, 1]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩

abbrev nBuf : Space → Nat
  | .hbm => 20
  | .vmem => 12
  | .smem => 0
  | _ => 0

abbrev bufTy : (tb : Table) → Fin (tcTables nBuf tb) → BufTy
  | .hbm, ⟨0, _⟩ => ⟨S400000x512, .f32⟩
  | .hbm, ⟨1, _⟩ => ⟨S25000x512, .f32⟩
  | .hbm, ⟨2, _⟩ => ⟨S400000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S25000x512, .f32⟩
  | .hbm, ⟨11, _⟩ => ⟨S400000x1, .i32⟩
  | .hbm, ⟨12, _⟩ => ⟨S25000x512, .f32⟩
  | .hbm, ⟨13, _⟩ => ⟨S1024x512, .bf16⟩
  | .hbm, ⟨14, _⟩ => ⟨S512x512, .bf16⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S25000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1024x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | _, _ => ⟨S400000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S25000x512 : S_.BroadcastsInDim S25000x512 (![] : Fin 0 → Fin S25000x512.rank)
  bcast_S400000_S400000x1_0 : S400000.BroadcastsInDim S400000x1 (![0] : Fin 1 → Fin S400000x1.rank)
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1024x512_S512x512_0_0 : ∀ a, (![0, 0] : Fin 2 → Nat) a + S512x512.size a ≤ S1024x512.size a
  h_S512x512 : 0 < S512x512.numel
  shapeCasts_S512x512_S512x512 : S512x512.ShapeCasts S512x512
  inb_S1024x512_S512x512_512_0 : ∀ a, (![512, 0] : Fin 2 → Nat) a + S512x512.size a ≤ S1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x512_S512x512_0_0 : ∀ a, (![0, 0] : Fin 2 → Nat) a + S512x512.size a ≤ S512x512.size a
  reduces_S1000x512_S1000 : S1000x512.Reduces [1] S1000
  shapeCasts_S1000_S1000x1 : S1000.ShapeCasts S1000x1
  broadcasts_S1000x1_S1000x512 : S1000x1.Broadcasts S1000x512
  scatter_S25000x512_S400000x1_S400000x512_1_0_0_1_wf : ScatterDims.WF S25000x512 S400000x1 S400000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S25000x512.size a
  hwx0_0 : ∀ i : grid0.Coords, EltTy.bits .f32 = 32 ∨ (Rect.block (s := S25000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S25000x512.size a
  hwx0_1 : ∀ i : grid0.Coords, EltTy.bits .f32 = 32 ∨ (Rect.block (s := S25000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x512.size a ≤ S25000x512.size a
  hwx0_8 : ∀ i : grid0.Coords, EltTy.bits .f32 = 32 ∨ (Rect.block (s := S25000x512) S1000x512.size (cc0_transform_8 i) (hinb0_8 i)).WholeWords (EltTy.packing .f32)

variable [Facts₀]

def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v2) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1000x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S400000x1 : Shape := ⟨2, ![400000, 1]⟩
abbrev S25000x1024 : Shape := ⟨2, ![25000, 1024]⟩
abbrev S1x512 : Shape := ⟨2, ![1, 512]⟩
abbrev S25000 : Shape := ⟨1, ![25000]⟩
abbrev S25000x1 : Shape := ⟨2, ![25000, 1]⟩

abbrev nBuf : Space → Nat
  | .hbm => 61
  | .vmem => 0
  | .smem => 0
  | _ => 0

abbrev bufTy : (tb : Table) → Fin (tcTables nBuf tb) → BufTy
  | .hbm, ⟨0, _⟩ => ⟨S400000x512, .f32⟩
  | .hbm, ⟨1, _⟩ => ⟨S25000x512, .f32⟩
  | .hbm, ⟨2, _⟩ => ⟨S400000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S25000x512, .f32⟩
  | .hbm, ⟨11, _⟩ => ⟨S400000x1, .i32⟩
  | .hbm, ⟨12, _⟩ => ⟨S25000x512, .f32⟩
  | .hbm, ⟨13, _⟩ => ⟨S25000x1024, .f32⟩
  | .hbm, ⟨14, _⟩ => ⟨S25000x512, .f32⟩
  | .hbm, ⟨15, _⟩ => ⟨S1x512, .f32⟩
  | .hbm, ⟨16, _⟩ => ⟨S25000x512, .f32⟩
  | .hbm, ⟨17, _⟩ => ⟨S25000x512, .f32⟩
  | .hbm, ⟨18, _⟩ => ⟨S25000x512, .f32⟩
  | .hbm, ⟨19, _⟩ => ⟨S25000x512, .f32⟩
  | .hbm, ⟨20, _⟩ => ⟨S_, .f32⟩
  | .hbm, ⟨21, _⟩ => ⟨S25000x512, .f32⟩
  | .hbm, ⟨22, _⟩ => ⟨S25000x512, .f32⟩
  | .hbm, ⟨23, _⟩ => ⟨S_, .f32⟩
  | .hbm, ⟨24, _⟩ => ⟨S25000x512, .f32⟩
  | .hbm, ⟨25, _⟩ => ⟨S25000x512, .f32⟩
  | .hbm, ⟨26, _⟩ => ⟨S25000x512, .f32⟩
  | .hbm, ⟨27, _⟩ => ⟨S25000x512, .f32⟩
  | .hbm, ⟨28, _⟩ => ⟨S1x512, .f32⟩
  | .hbm, ⟨29, _⟩ => ⟨S25000x512, .f32⟩
  | .hbm, ⟨30, _⟩ => ⟨S25000x512, .f32⟩
  | .hbm, ⟨31, _⟩ => ⟨S_, .f32⟩
  | .hbm, ⟨32, _⟩ => ⟨S25000, .f32⟩
  | .hbm, ⟨33, _⟩ => ⟨S25000x1, .f32⟩
  | .hbm, ⟨34, _⟩ => ⟨S_, .f32⟩
  | .hbm, ⟨35, _⟩ => ⟨S25000x1, .f32⟩
  | .hbm, ⟨36, _⟩ => ⟨S25000x1, .f32⟩
  | .hbm, ⟨37, _⟩ => ⟨S25000x512, .f32⟩
  | .hbm, ⟨38, _⟩ => ⟨S25000x512, .f32⟩
  | .hbm, ⟨39, _⟩ => ⟨S25000x512, .f32⟩
  | .hbm, ⟨40, _⟩ => ⟨S_, .f32⟩
  | .hbm, ⟨41, _⟩ => ⟨S25000, .f32⟩
  | .hbm, ⟨42, _⟩ => ⟨S25000x1, .f32⟩
  | .hbm, ⟨43, _⟩ => ⟨S_, .f32⟩
  | .hbm, ⟨44, _⟩ => ⟨S25000x1, .f32⟩
  | .hbm, ⟨45, _⟩ => ⟨S25000x1, .f32⟩
  | .hbm, ⟨46, _⟩ => ⟨S25000x512, .f32⟩
  | .hbm, ⟨47, _⟩ => ⟨S25000x512, .f32⟩
  | .hbm, ⟨48, _⟩ => ⟨S_, .f32⟩
  | .hbm, ⟨49, _⟩ => ⟨S25000x1, .f32⟩
  | .hbm, ⟨50, _⟩ => ⟨S25000x1, .f32⟩
  | .hbm, ⟨51, _⟩ => ⟨S25000x1, .f32⟩
  | .hbm, ⟨52, _⟩ => ⟨S25000x512, .f32⟩
  | .hbm, ⟨53, _⟩ => ⟨S25000x512, .f32⟩
  | .hbm, ⟨54, _⟩ => ⟨S1x512, .f32⟩
  | .hbm, ⟨55, _⟩ => ⟨S25000x512, .f32⟩
  | .hbm, ⟨56, _⟩ => ⟨S25000x512, .f32⟩
  | .hbm, ⟨57, _⟩ => ⟨S1x512, .f32⟩
  | .hbm, ⟨58, _⟩ => ⟨S25000x512, .f32⟩
  | .hbm, ⟨59, _⟩ => ⟨S25000x512, .f32⟩
  | .hbm, ⟨60, _⟩ => ⟨S25000x512, .f32⟩
  | _, _ => ⟨S400000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  bcast_S_S25000x512 : S_.BroadcastsInDim S25000x512 (![] : Fin 0 → Fin S25000x512.rank)
  bcast_S400000_S400000x1_0 : S400000.BroadcastsInDim S400000x1 (![0] : Fin 1 → Fin S400000x1.rank)
  concatenates_S25000x512_S25000x512_S25000x1024_d1 : Shape.Concatenates [S25000x512, S25000x512] S25000x1024 1
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  reducesTo_S25000x512_S25000_d1 : S25000x512.ReducesTo [1] S25000
  h_S_ : 0 < S_.numel
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S25000x1_S25000x512_0_1 : S25000x1.BroadcastsInDim S25000x512 (![0, 1] : Fin 2 → Fin S25000x512.rank)
  scatter_S25000x512_S400000x1_S400000x512_1_0_0_1_wf : ScatterDims.WF S25000x512 S400000x1 S400000x512 [1] [0] [0] 1
  dot_S25000x1024_S1024x512_S25000x512_1_0_0_1_n_n_wf : DotDims.WF S25000x1024 S1024x512 S25000x512 [1] [0] [0] [1] [] []
  dot_S25000x512_S512x512_S25000x512_1_0_0_1_n_n_wf : DotDims.WF S25000x512 S512x512 S25000x512 [1] [0] [0] [1] [] []

variable [Facts₀]

def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S25000x1024_S1024x512_S25000x512_1_0_0_1_n_n : DotDims S25000x1024 S1024x512 S25000x512 where
  lhsContracting := [1]
  rhsContracting := [0]
  lhsNonContracting := [0]
  rhsNonContracting := [1]
  lhsBatch := []
  rhsBatch := []
  wf := dot_S25000x1024_S1024x512_S25000x512_1_0_0_1_n_n_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf

class Facts : Prop extends Facts₀ where

variable [Facts]
-- ==== Proof.NodeMlp.lean ====
/-
  One node's update in a message-passing layer, as a function on the extended reals.

  A node holds a row `a` of 512 aggregated edge features and a row `n` of 512 features of its own. The first linear
  layer has 1024 input rows: the upper 512 meet `a`, the lower 512 meet `n`, so its pre-activation is the sum of two
  contractions over 512 plus the bias (`preact`). The activation is `z · logistic z` (`silu`), the second layer one
  contraction over 512 plus its bias (`second`). The result is normalised over its 512 entries — the mean is the sum
  divided by a constant `c`, the variance the mean of the squared centred entries, the scale the reciprocal square root of
  the variance plus `ε` —, scaled by `γ`, shifted by `β`, and the node's own features are added back (`normalised`).
  Sums over the extended reals are sums in a commutative monoid, so a sum over 1024 indices is the sum over its two halves
  (`sum_halves`) whatever the entries are, infinite ones included: the one law that joins a contraction over the
  concatenated row with the two separate contractions.

  `update` is the function for all 25000 nodes at once: row `i` of the result is `node` of rows `i` of the two arrays.
-/
import Idealize.ShloMosaic.PureOps.Ideal
import Idealize.ShloMosaic.Lib.ValueIdx

noncomputable section

open scoped BigOperators

namespace Cert.NodeMlp

open Idealize.ShloMosaic Idealize.ShloMosaic.ValueIdx

/-- Row `k` of the upper half of a matrix with 1024 rows. -/
abbrev upper (k : Fin 512) : Fin 1024 := ⟨k.val, by omega⟩
/-- Row `512 + k`: row `k` of its lower half. -/
abbrev lower (k : Fin 512) : Fin 1024 := ⟨512 + k.val, by omega⟩

/-- A sum over 1024 indices is the sum over the first 512 plus the sum over the last 512. -/
theorem sum_halves (f : Fin 1024 → EReal) :
    ∑ k : Fin 1024, f k = ∑ k : Fin 512, f (upper k) + ∑ k : Fin 512, f (lower k) :=
  Fin.sum_univ_add (a := 512) (b := 512) f

/-- The first layer's pre-activation: the aggregated row against the weight's upper half, the node's own row against
    its lower half, and the bias. -/
def preact (a n : Fin 512 → EReal) (Wa Wn : Fin 512 → Fin 512 → EReal) (b : Fin 512 → EReal) (j : Fin 512) : EReal :=
  (∑ k : Fin 512, a k * Wa k j + ∑ k : Fin 512, n k * Wn k j) + b j

/-- `z · logistic z`. -/
def silu (z : EReal) : EReal := z * Ideal.logistic z

/-- The second layer on the activated pre-activation. -/
def second (z : Fin 512 → EReal) (W : Fin 512 → Fin 512 → EReal) (b : Fin 512 → EReal) (j : Fin 512) : EReal :=
  ∑ k : Fin 512, silu (z k) * W k j + b j

/-- The sum of a row's entries divided by the constant `c`. -/
def mean (c : EReal) (y : Fin 512 → EReal) : EReal := Ideal.div (∑ j : Fin 512, y j) c

/-- An entry less the row's mean. -/
def centred (c : EReal) (y : Fin 512 → EReal) (j : Fin 512) : EReal := y j - mean c y

/-- The row normalised, scaled, shifted, and the node's own features added back. -/
def normalised (c ε : EReal) (y γ β n : Fin 512 → EReal) (j : Fin 512) : EReal :=
  ((centred c y j * Ideal.rsqrt (mean c (fun l => centred c y l * centred c y l) + ε)) * γ j + β j) + n j

/-- One node's new features from its two rows and the layer's parameters. -/
def node (c ε : EReal) (a n : Fin 512 → EReal) (Wa Wn : Fin 512 → Fin 512 → EReal) (b₁ : Fin 512 → EReal)
    (W₂ : Fin 512 → Fin 512 → EReal) (b₂ γ β : Fin 512 → EReal) : Fin 512 → EReal :=
  normalised c ε (second (preact a n Wa Wn b₁) W₂ b₂) γ β n

/-- All nodes at once: row `i` of the result is `node` of rows `i` of the aggregated and the node features, the first
    weight read by halves. -/
def update (c ε : EReal) (A N : (⟨2, ![25000, 512]⟩ : Shape).Idx → EReal) (W₁ : (⟨2, ![1024, 512]⟩ : Shape).Idx → EReal)
    (b₁ : (⟨1, ![512]⟩ : Shape).Idx → EReal) (W₂ : (⟨2, ![512, 512]⟩ : Shape).Idx → EReal)
    (b₂ γ β : (⟨1, ![512]⟩ : Shape).Idx → EReal) : (⟨2, ![25000, 512]⟩ : Shape).Idx → EReal :=
  fun i => node c ε (fun k => A (ix2 (⟨(i 0).val, idx2_lt0 i⟩ : Fin 25000) k)) (fun k => N (ix2 (⟨(i 0).val, idx2_lt0 i⟩ : Fin 25000) k))
    (fun k j => W₁ (ix2 (upper k) j)) (fun k j => W₁ (ix2 (lower k) j)) (fun j => b₁ (ix1 j)) (fun k j => W₂ (ix2 k j))
    (fun j => b₂ (ix1 j)) (fun j => γ (ix1 j)) (fun j => β (ix1 j)) ⟨(i 1).val, idx2_lt1 i⟩

/-- `update` at the index with coordinates `(r, q)`. -/
theorem update_ix2 (c ε : EReal) (A N : (⟨2, ![25000, 512]⟩ : Shape).Idx → EReal) (W₁ : (⟨2, ![1024, 512]⟩ : Shape).Idx → EReal)
    (b₁ : (⟨1, ![512]⟩ : Shape).Idx → EReal) (W₂ : (⟨2, ![512, 512]⟩ : Shape).Idx → EReal)
    (b₂ γ β : (⟨1, ![512]⟩ : Shape).Idx → EReal) (r : Fin 25000) (q : Fin 512) :
    update c ε A N W₁ b₁ W₂ b₂ γ β (ix2 r q)
      = node c ε (fun k => A (ix2 r k)) (fun k => N (ix2 r k)) (fun k j => W₁ (ix2 (upper k) j)) (fun k j => W₁ (ix2 (lower k) j))
          (fun j => b₁ (ix1 j)) (fun k j => W₂ (ix2 k j)) (fun j => b₂ (ix1 j)) (fun j => γ (ix1 j)) (fun j => β (ix1 j)) q := rfl

end Cert.NodeMlp

end
-- ==== Proof.LibKeepdims.lean ====
/-
  Layout operations that keep or re-insert a UNIT axis, read at an index written by coordinates: the column forms a
  reduction with the reduced axis kept needs. A vector viewed as a column, a column repeated along its unit axis, and
  a matrix with a unit axis inserted between its two axes. Each is the general read-at-an-index lemma of the layout
  operation with the row-major positions (for a cast) or the per-axis coordinates (for a broadcast) worked out once.
  They hold for any extents and any element type.
-/
import Idealize.ShloMosaic.Lib.ValueLayout

namespace Idealize.ShloMosaic.Keepdims

open Idealize.ShloMosaic Idealize.ShloMosaic.ValueIdx

variable {α : Type}

/-- A vector of `a` entries cast to the column `[a, 1]` reads, at `(i, u)`, the vector at `i`: the column's
    row-major position `i * 1 + u` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`: every entry of a
    row is that row's one value. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A matrix `[a, b]` cast to `[a, 1, b]` reads, at `(i, u, j)`, the matrix at `(i, j)`: the inserted unit axis
    does not move the row-major position. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.Keepdims
-- ==== Proof.PayloadRows.lean ====
/-
  The kernel body's arithmetic, read one entry at a time.

  The body works on a block of 1000 nodes. Its three payloads are: the second layer's output with the row mean taken off
  (a 1000 × 512 block), the row variance (a 1000 × 1 column), and the final value stored (the centred output times the
  reciprocal square root of the variance plus ε, times γ, plus β, plus the node's own features). Each is read here at an
  entry `(p, q)` and found to be the corresponding piece of `Cert.NodeMlp.node` on row `p` of the loaded blocks: a matrix
  product into a zero accumulator is the sum over the contracted index, a lane reduction is the sum over the row, the
  format changes are the identity on extended reals, and the column and row broadcasts read the one entry they repeat.
-/
import proofs.«153240_j42777874268720_2_alg».proof.Proof.Gen.KernelIdeal.Skeleton
import proofs.«153240_j42777874268720_2_alg».proof.Proof.NodeMlp
import proofs.«153240_j42777874268720_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.NodeMlp

/-- The dimension numbers of the body's three matrix products: rows × 512 times 512 × columns. -/
abbrev D := dot_S1000x512_S512x512_S1000x512_1_0_0_1_n_n

theorem lhs_row (i : S1000x512.Idx) (κ : D.contr.Idx) : (D.lhsIdx i κ 0).val = (i 0).val := by
  unfold DotDims.lhsIdx
  rw [dif_neg (show ¬(0 : Fin S1000x512.rank) ∈ D.lhsBatch by decide), dif_pos (show (0 : Fin S1000x512.rank) ∈ D.lhsNonContracting by decide)]
  rfl

theorem rhs_col (i : S1000x512.Idx) (κ : D.contr.Idx) : (D.rhsIdx i κ 1).val = (i 1).val := by
  unfold DotDims.rhsIdx
  rw [dif_neg (show ¬(1 : Fin S512x512.rank) ∈ D.rhsBatch by decide), dif_pos (show (1 : Fin S512x512.rank) ∈ D.rhsNonContracting by decide)]
  rfl

/-- A block times a 512 × 512 matrix into the zero accumulator, at `(p, q)`: the sum over `k` of row `p` against column `q`. -/
theorem matmul_at {φ₁ φ₂ : FTy} (l : FVec Ideal S1000x512 φ₁) (r : FVec Ideal S512x512 φ₂) (p : Fin 1000) (q : Fin 512) :
    matmul D none l r (constant (F := Ideal) S1000x512 .f32 0x00000000#32) (ix2 p q) = ∑ k : Fin 512, l (ix2 p k) * r (ix2 k q) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 512 rfl rfl).symm k) = ix2 k q := funext fun a => Fin.ext (by
    match a with
    | ⟨0, _⟩ => exact (D.rhsIdx_val_of_single rfl _ _).trans hk
    | ⟨1, _⟩ => exact rhs_col _ _)
  rw [el, er]

/-- The lane sum of a block, at row `p`: the sum of the row's 512 entries. -/
theorem rowSum_at (x : FVec Ideal S1000x512 .f32) (p : Fin 1000) :
    FloatOps.reduceAdd (F := Ideal) [1] reduces_S1000x512_S1000 x (ix1 p) = ∑ k : Fin 512, x (ix2 p k) := by
  refine (Ideal.multiReduction_add_single x 0x00000000#32 reduces_S1000x512_S1000 (.inl rfl) rfl (ix1 p)).trans ?_
  exact Finset.sum_congr rfl fun k _ => congrArg x (funext fun a => Fin.ext (by
    match a with
    | ⟨0, _⟩ => rfl
    | ⟨1, _⟩ => rfl))

/-- A vector of row values viewed as a column. -/
theorem col_at (x : FVec Ideal S1000 .f32) (p : Fin 1000) :
    shapeCast S1000x1 x shapeCasts_S1000_S1000x1 (ix2 p (0 : Fin 1)) = x (ix1 p) :=
  Keepdims.shapeCast_a_a1_apply x _ p 0

/-- A column repeated along the row. -/
theorem colBcast_at (v : FVec Ideal S1000x1 .f32) (p : Fin 1000) (q : Fin 512) :
    broadcastTo S1000x512 v broadcasts_S1000x1_S1000x512 (ix2 p q) = v (ix2 p (0 : Fin 1)) :=
  Keepdims.broadcastTo_a1_ab_apply v _ p q

/-- A parameter row repeated for every node of the block. -/
theorem rowBcast_at (v : FVec Ideal S1x512 .f32) (p : Fin 1000) (q : Fin 512) :
    broadcastTo S1000x512 v broadcasts_S1x512_S1000x512 (ix2 p q) = v (ix2 (0 : Fin 1) q) :=
  broadcastTo_1b_ab_apply v _ p q

theorem logistic_at {s : Shape} (x : FVec Ideal s .f32) (i : s.Idx) : logistic x i = Ideal.logistic (x i) := rfl
theorem rsqrt_at {s : Shape} (x : FVec Ideal s .f32) (i : s.Idx) : rsqrt x i = Ideal.rsqrt (x i) := rfl

/-- The second layer's output on row `p` of the loaded blocks, before the mean is taken off. -/
abbrev layer2 (v0 v2 : Vec Ideal S1000x512 .f32) (v5 v7 : Vec Ideal S512x512 .bf16) (v12 : Vec Ideal S1x512 .f32)
    (v19 : Vec Ideal S512x512 .bf16) (v22 : Vec Ideal S1x512 .f32) (p : Fin 1000) : Fin 512 → EReal :=
  second (preact (fun k => v0 (ix2 p k)) (fun k => v2 (ix2 p k)) (fun k j => v5 (ix2 k j)) (fun k j => v7 (ix2 k j))
    (fun j => v12 (ix2 (0 : Fin 1) j))) (fun k j => v19 (ix2 k j)) (fun j => v22 (ix2 (0 : Fin 1) j))

/-- The first payload at `(p, q)`: the second layer's output, centred on the row mean. -/
theorem centred_at (v0 v2 : Vec Ideal S1000x512 .f32) (v5 v7 : Vec Ideal S512x512 .bf16) (v12 : Vec Ideal S1x512 .f32)
    (v19 : Vec Ideal S512x512 .bf16) (v22 : Vec Ideal S1x512 .f32) (p : Fin 1000) (q : Fin 512) :
    k0_pay2 v0 v2 v5 v7 v12 v19 v22 (ix2 p q)
      = centred (Scalar.ofBits (F := Ideal) .f32 0x44000000#32) (layer2 v0 v2 v5 v7 v12 v19 v22 p) q := by
  unfold k0_pay2
  simp only [subf_apply, addf_apply, mulf_apply, divf_apply, truncf_apply, broadcast_apply, shapeCast_self, matmul_at,
    col_at, colBcast_at, rowBcast_at, logistic_at, multiReduction]
  rw [rowSum_at]
  simp only [addf_apply, mulf_apply, truncf_apply, shapeCast_self, matmul_at, rowBcast_at, logistic_at]
  rfl

/-- The second payload at row `p`: the mean of the squared centred entries, the row's variance. -/
theorem variance_at (v0 v2 : Vec Ideal S1000x512 .f32) (v5 v7 : Vec Ideal S512x512 .bf16) (v12 : Vec Ideal S1x512 .f32)
    (v19 : Vec Ideal S512x512 .bf16) (v22 : Vec Ideal S1x512 .f32) (p : Fin 1000) :
    k0_pay3 v0 v2 v5 v7 v12 v19 v22 (ix2 p (0 : Fin 1))
      = mean (Scalar.ofBits (F := Ideal) .f32 0x44000000#32)
          (fun l => centred (Scalar.ofBits (F := Ideal) .f32 0x44000000#32) (layer2 v0 v2 v5 v7 v12 v19 v22 p) l
            * centred (Scalar.ofBits (F := Ideal) .f32 0x44000000#32) (layer2 v0 v2 v5 v7 v12 v19 v22 p) l) := by
  unfold k0_pay3
  simp only [divf_apply, col_at, broadcast_apply, multiReduction]
  rw [rowSum_at]
  simp only [mulf_apply, centred_at]
  rfl

/-- The stored value at `(p, q)` from the centred output, the variance column, ε and the two parameter rows. -/
theorem stored_at (v2 : Vec Ideal S1000x512 .f32) (v31 : FVec Ideal S1000x512 .f32) (v36 : FVec Ideal S1000x1 .f32) (ε : Ideal .f32)
    (v42 v46 : Vec Ideal S1x512 .f32) (p : Fin 1000) (q : Fin 512) :
    k0_pay1 v2 v31 v36 ε v42 v46 (ix2 p q)
      = ((v31 (ix2 p q) * Ideal.rsqrt (v36 (ix2 p (0 : Fin 1)) + ε)) * v42 (ix2 (0 : Fin 1) q) + v46 (ix2 (0 : Fin 1) q)) + v2 (ix2 p q) := by
  unfold k0_pay1
  simp only [addf_apply, mulf_apply, colBcast_at, rowBcast_at, rsqrt_at, broadcast_apply, shapeCast_self]

/-- The body's stored block at `(p, q)` is `node` of row `p` of the loaded blocks, at `q`. -/
theorem body_at (v0 v2 : Vec Ideal S1000x512 .f32) (v5 v7 : Vec Ideal S512x512 .bf16) (v12 : Vec Ideal S1x512 .f32)
    (v19 : Vec Ideal S512x512 .bf16) (v22 v42 v46 : Vec Ideal S1x512 .f32) (p : Fin 1000) (q : Fin 512) :
    k0_pay1 v2 (k0_pay2 v0 v2 v5 v7 v12 v19 v22) (k0_pay3 v0 v2 v5 v7 v12 v19 v22) (Scalar.ofBits (F := Ideal) .f32 0x3727C5AC#32) v42 v46 (ix2 p q)
      = node (Scalar.ofBits (F := Ideal) .f32 0x44000000#32) (Scalar.ofBits (F := Ideal) .f32 0x3727C5AC#32)
          (fun k => v0 (ix2 p k)) (fun k => v2 (ix2 p k)) (fun k j => v5 (ix2 k j)) (fun k j => v7 (ix2 k j))
          (fun j => v12 (ix2 (0 : Fin 1) j)) (fun k j => v19 (ix2 k j)) (fun j => v22 (ix2 (0 : Fin 1) j))
          (fun j => v42 (ix2 (0 : Fin 1) j)) (fun j => v46 (ix2 (0 : Fin 1) j)) q := by
  rw [stored_at, centred_at, variance_at]
  rfl

end Cert.KernelIdeal.Rows

end
-- ==== Proof.BlockValue.lean ====
/-
  What one grid point leaves in the output window's buffer, entry by entry.

  The body loads the two 1000 × 512 blocks and the parameter rows whole, and the 1024 × 512 weight block as its upper and
  its lower 512 rows; it stores one value covering the whole output block. So the buffer after the body is the stored value,
  the whole-block loads are the blocks themselves, and the two half loads read the weight block at rows `k` and `512 + k`.
  With the body's arithmetic read at an entry (`Rows.body_at`) the output block at `(p, q)` is `Cert.NodeMlp.node` of row
  `p` of the input blocks, at `q`.
-/
import proofs.«153240_j42777874268720_2_alg».proof.Proof.Gen.KernelIdeal.Frame
import proofs.«153240_j42777874268720_2_alg».proof.Proof.PayloadRows
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.NodeMlp

theorem zero_offsets : (![0, 0] : Fin 2 → Nat) = fun _ => 0 := funext fun a => by fin_cases a <;> rfl

/-- The load of the weight block's upper half reads row `k`. -/
theorem ld_upper (x : Vec Ideal S1024x512 .bf16) (k j : Fin 512) : View.ld x r0_1 (ix2 k j) = x (ix2 (upper k) j) :=
  congrArg x (funext fun a => Fin.ext (by
    match a with
    | ⟨0, _⟩ => show 0 + 1 * k.val = k.val; omega
    | ⟨1, _⟩ => show 0 + 1 * j.val = j.val; omega))

/-- The load of its lower half reads row `512 + k`. -/
theorem ld_lower (x : Vec Ideal S1024x512 .bf16) (k j : Fin 512) : View.ld x r0_2 (ix2 k j) = x (ix2 (lower k) j) :=
  congrArg x (funext fun a => Fin.ext (by
    match a with
    | ⟨0, _⟩ => show 512 + 1 * k.val = 512 + k.val; omega
    | ⟨1, _⟩ => show 0 + 1 * j.val = j.val; omega))

/-- The output window's buffer after the body, at `(p, q)`: `node` of row `p` of the input blocks. -/
theorem out_at (x0 x1 : Vec Ideal S1000x512 .f32) (x2 : Vec Ideal S1024x512 .bf16) (x3 : Vec Ideal S1x512 .f32)
    (x4 : Vec Ideal S512x512 .bf16) (x5 x6 x7 : Vec Ideal S1x512 .f32) (p : Fin 1000) (q : Fin 512) :
    out0_8 x0 x1 x2 x3 x4 x5 x6 x7 (ix2 p q)
      = node (Scalar.ofBits (F := Ideal) .f32 0x44000000#32) (Scalar.ofBits (F := Ideal) .f32 0x3727C5AC#32)
          (fun k => x0 (ix2 p k)) (fun k => x1 (ix2 p k)) (fun k j => x2 (ix2 (upper k) j)) (fun k j => x2 (ix2 (lower k) j))
          (fun j => x3 (ix2 (0 : Fin 1) j)) (fun k j => x4 (ix2 k j)) (fun j => x5 (ix2 (0 : Fin 1) j))
          (fun j => x6 (ix2 (0 : Fin 1) j)) (fun j => x7 (ix2 (0 : Fin 1) j)) q := by
  unfold out0_8
  rw [View.canon_unit_zero zero_offsets]
  simp only [View.ld_unit_zero (S := S1000x512) zero_offsets, View.ld_unit_zero (S := S1x512) zero_offsets,
    View.ld_unit_zero (S := S512x512) zero_offsets]
  rw [Rows.body_at]
  have hu : (fun (k j : Fin 512) => View.ld x2 r0_1 (ix2 k j)) = fun k j => x2 (ix2 (upper k) j) :=
    funext fun k => funext fun j => ld_upper x2 k j
  have hl : (fun (k j : Fin 512) => View.ld x2 r0_2 (ix2 k j)) = fun k j => x2 (ix2 (lower k) j) :=
    funext fun k => funext fun j => ld_lower x2 k j
  exact congrArg₂ (fun Wa Wn => node (Scalar.ofBits (F := Ideal) .f32 0x44000000#32) (Scalar.ofBits (F := Ideal) .f32 0x3727C5AC#32)
    (fun k => x0 (ix2 p k)) (fun k => x1 (ix2 p k)) Wa Wn (fun j => x3 (ix2 (0 : Fin 1) j)) (fun k j => x4 (ix2 k j))
    (fun j => x5 (ix2 (0 : Fin 1) j)) (fun j => x6 (ix2 (0 : Fin 1) j)) (fun j => x7 (ix2 (0 : Fin 1) j)) q) hu hl

end Cert.KernelIdeal.Block

end
-- ==== Proof.KernelValue.lean ====
/-
  The kernel's result array after the run is `Cert.NodeMlp.update` of the argument arrays.

  The grid has 25 points; point `t` works on nodes `1000 t … 1000 t + 999`: its blocks of the aggregated and the node
  features are rows `1000 t + p` of those arrays, the parameter windows are whole at every point, and it writes rows
  `1000 t + p` of the result. The arrays the region finds are the host's: the aggregated features (a scatter-add of the edge
  features, kept as one array), the two weights (a format change, the identity on extended reals) and the four parameter
  vectors viewed as rows. So what point `t` writes back is block `t` of `update`, the 25 blocks cover the array, and the
  array ends holding `update`.
-/
import proofs.«153240_j42777874268720_2_alg».proof.Proof.Gen.KernelIdeal.Value
import proofs.«153240_j42777874268720_2_alg».proof.Proof.BlockValue
import Idealize.ShloMosaic.Lib.StableHlo.Run
import Idealize.ShloMosaic.Lib.ValueLayout
import Idealize.ShloMosaic.Lib.Pipeline.Value

noncomputable section

open scoped BigOperators

namespace Cert.KernelIdeal.Nodes

open Cert.KernelIdeal Cert.KernelIdeal.Gen Cert.KernelIdeal.Value Idealize.ShloMosaic Idealize.ShloMosaic.TcCoe Idealize.SL.Sem
open Idealize.ShloMosaic.ValueIdx Cert.NodeMlp
open Idealize.ShloMosaic.Pipeline (Dat)

variable (m : (ℓ : Loc nD τ sig) → Buf (Elt Ideal) ℓ) (ρ : Dev nD → PrngReg)

/-! ## The arrays the region finds -/

/-- The aggregated edge features: the scatter-add the host runs before the region, one array. -/
abbrev agg (c : Dev nD) : Buf (Elt Ideal) ((c : Thread nD τ).loc main_v2) :=
  Host.scatterAdd scatter_S25000x512_S400000x1_S400000x512_1_0_0_1
    (broadcastInDim S25000x512 ![] bcast_S_S25000x512 (constant (F := Ideal) S_ .f32 0x00000000#32))
    (broadcastInDim S400000x1 ![0] bcast_S400000_S400000x1_0 (m ((c : Thread nD τ).loc main_arg2)))
    (m ((c : Thread nD τ).loc main_arg0))

theorem V_agg (c : Dev nD) : V m c main_v2 = agg m c := by
  dsimp only [Gen.V, Gen.hostOps0]; after_results

theorem V_w1 (c : Dev nD) : (V m c main_v3 : S1024x512.Idx → EReal) = truncf (F := Ideal) .bf16 (m ((c : Thread nD τ).loc main_arg3)) bitsLt_bf16_f32 := by
  dsimp only [Gen.V, Gen.hostOps0]; after_results

theorem V_w2 (c : Dev nD) : (V m c main_v4 : S512x512.Idx → EReal) = truncf (F := Ideal) .bf16 (m ((c : Thread nD τ).loc main_arg5)) bitsLt_bf16_f32 := by
  dsimp only [Gen.V, Gen.hostOps0]; after_results

theorem V_b1 (c : Dev nD) : (V m c main_v5 : S1x512.Idx → EReal) = shapeCast S1x512 (m ((c : Thread nD τ).loc main_arg4)) shapeCasts_S512_S1x512 := by
  dsimp only [Gen.V, Gen.hostOps0]; after_results; rfl

theorem V_b2 (c : Dev nD) : (V m c main_v6 : S1x512.Idx → EReal) = shapeCast S1x512 (m ((c : Thread nD τ).loc main_arg6)) shapeCasts_S512_S1x512 := by
  dsimp only [Gen.V, Gen.hostOps0]; after_results; rfl

theorem V_gamma (c : Dev nD) : (V m c main_v7 : S1x512.Idx → EReal) = shapeCast S1x512 (m ((c : Thread nD τ).loc main_arg7)) shapeCasts_S512_S1x512 := by
  dsimp only [Gen.V, Gen.hostOps0]; after_results; rfl

theorem V_beta (c : Dev nD) : (V m c main_v8 : S1x512.Idx → EReal) = shapeCast S1x512 (m ((c : Thread nD τ).loc main_arg8)) shapeCasts_S512_S1x512 := by
  dsimp only [Gen.V, Gen.hostOps0]; after_results; rfl

/-! ## The index maps, decided once over the grid -/

/-- The two row-blocked inputs and the output move with the point along the rows; the parameter windows stay put. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem point_lt (t : Fin cfg0.N) : t.val < 25 := by
  have h := t.isLt
  have e : cfg0.N = 25 := N_0
  omega

/-! ## The windows' blocks, entry by entry -/

/-- The aggregated features' block at point `t`: rows `1000 t + p`. -/
theorem agg_blk (c : Dev nD) (t : Fin cfg0.N) (p : Fin 1000) (k : Fin 512) (r : Fin 25000) (hr : r.val = 1000 * t.val + p.val) :
    iblk m c 0 t (ix2 p k) = agg m c (ix2 r k) := by
  obtain ⟨⟨a0, a1⟩, -⟩ := idx_facts t
  show V m c main_v2 (((cfg0.win 0).blk t).view.emb (ix2 p k)) = agg m c (ix2 r k)
  rw [V_agg]
  refine congrArg (agg m c) (funext fun a => Fin.ext ?_)
  match a with
  | ⟨0, _⟩ => show win0_0.index t (0 : Fin 2) * 1000 + 1 * p.val = r.val; omega
  | ⟨1, _⟩ => show win0_0.index t (1 : Fin 2) * 512 + 1 * k.val = k.val; omega

/-- The node features' block at point `t`: rows `1000 t + p`. -/
theorem nfeat_blk (c : Dev nD) (t : Fin cfg0.N) (p : Fin 1000) (k : Fin 512) (r : Fin 25000) (hr : r.val = 1000 * t.val + p.val) :
    iblk m c 1 t (ix2 p k) = m ((c : Thread nD τ).loc main_arg1) (ix2 r k) := by
  obtain ⟨-, ⟨a0, a1⟩, -⟩ := idx_facts t
  show V m c main_arg1 (((cfg0.win 1).blk t).view.emb (ix2 p k)) = m ((c : Thread nD τ).loc main_arg1) (ix2 r k)
  rw [V_main_arg1]
  refine congrArg (m ((c : Thread nD τ).loc main_arg1)) (funext fun a => Fin.ext ?_)
  match a with
  | ⟨0, _⟩ => show win0_1.index t (0 : Fin 2) * 1000 + 1 * p.val = r.val; omega
  | ⟨1, _⟩ => show win0_1.index t (1 : Fin 2) * 512 + 1 * k.val = k.val; omega

/-- The first weight's window is the whole weight at every point. -/
theorem w1_blk (c : Dev nD) (t : Fin cfg0.N) (k : Fin 1024) (j : Fin 512) :
    iblk m c 2 t (ix2 k j) = m ((c : Thread nD τ).loc main_arg3) (ix2 k j) := by
  obtain ⟨-, -, ⟨a0, a1⟩, -⟩ := idx_facts t
  show V m c main_v3 (((cfg0.win 2).blk t).view.emb (ix2 k j)) = m ((c : Thread nD τ).loc main_arg3) (ix2 k j)
  rw [V_w1]
  show m ((c : Thread nD τ).loc main_arg3) (((cfg0.win 2).blk t).view.emb (ix2 k j)) = m ((c : Thread nD τ).loc main_arg3) (ix2 k j)
  refine congrArg (m ((c : Thread nD τ).loc main_arg3)) (funext fun a => Fin.ext ?_)
  match a with
  | ⟨0, _⟩ => show win0_2.index t (0 : Fin 2) * 1024 + 1 * k.val = k.val; omega
  | ⟨1, _⟩ => show win0_2.index t (1 : Fin 2) * 512 + 1 * j.val = j.val; omega

/-- So is the second weight's. -/
theorem w2_blk (c : Dev nD) (t : Fin cfg0.N) (k j : Fin 512) :
    iblk m c 4 t (ix2 k j) = m ((c : Thread nD τ).loc main_arg5) (ix2 k j) := by
  obtain ⟨-, -, -, -, ⟨a0, a1⟩, -⟩ := idx_facts t
  show V m c main_v4 (((cfg0.win 4).blk t).view.emb (ix2 k j)) = m ((c : Thread nD τ).loc main_arg5) (ix2 k j)
  rw [V_w2]
  show m ((c : Thread nD τ).loc main_arg5) (((cfg0.win 4).blk t).view.emb (ix2 k j)) = m ((c : Thread nD τ).loc main_arg5) (ix2 k j)
  refine congrArg (m ((c : Thread nD τ).loc main_arg5)) (funext fun a => Fin.ext ?_)
  match a with
  | ⟨0, _⟩ => show win0_4.index t (0 : Fin 2) * 512 + 1 * k.val = k.val; omega
  | ⟨1, _⟩ => show win0_4.index t (1 : Fin 2) * 512 + 1 * j.val = j.val; omega

/-- A parameter vector's window is the vector viewed as one row. -/
theorem b1_blk (c : Dev nD) (t : Fin cfg0.N) (j : Fin 512) : iblk m c 3 t (ix2 (0 : Fin 1) j) = m ((c : Thread nD τ).loc main_arg4) (ix1 j) := by
  obtain ⟨-, -, -, ⟨a0, a1⟩, -⟩ := idx_facts t
  show V m c main_v5 (((cfg0.win 3).blk t).view.emb (ix2 (0 : Fin 1) j)) = m ((c : Thread nD τ).loc main_arg4) (ix1 j)
  rw [V_b1]
  have e : ((cfg0.win 3).blk t).view.emb (ix2 (0 : Fin 1) j) = ix2 (0 : Fin 1) j := funext fun a => Fin.ext (by
    match a with
    | ⟨0, _⟩ => show win0_3.index t (0 : Fin 2) * 1 + 1 * 0 = 0; omega
    | ⟨1, _⟩ => show win0_3.index t (1 : Fin 2) * 512 + 1 * j.val = j.val; omega)
  rw [e]
  exact shapeCast_a_1a_apply _ _ 0 j

theorem b2_blk (c : Dev nD) (t : Fin cfg0.N) (j : Fin 512) : iblk m c 5 t (ix2 (0 : Fin 1) j) = m ((c : Thread nD τ).loc main_arg6) (ix1 j) := by
  obtain ⟨-, -, -, -, -, ⟨a0, a1⟩, -⟩ := idx_facts t
  show V m c main_v6 (((cfg0.win 5).blk t).view.emb (ix2 (0 : Fin 1) j)) = m ((c : Thread nD τ).loc main_arg6) (ix1 j)
  rw [V_b2]
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 512 + 1 * j.val = j.val; omega)
  rw [e]
  exact shapeCast_a_1a_apply _ _ 0 j

theorem gamma_blk (c : Dev nD) (t : Fin cfg0.N) (j : Fin 512) : iblk m c 6 t (ix2 (0 : Fin 1) j) = m ((c : Thread nD τ).loc main_arg7) (ix1 j) := by
  obtain ⟨-, -, -, -, -, -, ⟨a0, a1⟩, -⟩ := idx_facts t
  show V m c main_v7 (((cfg0.win 6).blk t).view.emb (ix2 (0 : Fin 1) j)) = m ((c : Thread nD τ).loc main_arg7) (ix1 j)
  rw [V_gamma]
  have e : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 512 + 1 * j.val = j.val; omega)
  rw [e]
  exact shapeCast_a_1a_apply _ _ 0 j

theorem beta_blk (c : Dev nD) (t : Fin cfg0.N) (j : Fin 512) : iblk m c 7 t (ix2 (0 : Fin 1) j) = m ((c : Thread nD τ).loc main_arg8) (ix1 j) := by
  obtain ⟨-, -, -, -, -, -, -, ⟨a0, a1⟩, -⟩ := idx_facts t
  show V m c main_v8 (((cfg0.win 7).blk t).view.emb (ix2 (0 : Fin 1) j)) = m ((c : Thread nD τ).loc main_arg8) (ix1 j)
  rw [V_beta]
  have e : ((cfg0.win 7).blk t).view.emb (ix2 (0 : Fin 1) j) = ix2 (0 : Fin 1) j := funext fun a => Fin.ext (by
    match a with
    | ⟨0, _⟩ => show win0_7.index t (0 : Fin 2) * 1 + 1 * 0 = 0; omega
    | ⟨1, _⟩ => show win0_7.index t (1 : Fin 2) * 512 + 1 * j.val = j.val; omega)
  rw [e]
  exact shapeCast_a_1a_apply _ _ 0 j

/-! ## One point's block is a block of `update` -/

/-- The divisor of the two means and the constant added to the variance, as the body spells them. -/
abbrev c512 : EReal := Scalar.ofBits (F := Ideal) .f32 0x44000000#32
abbrev eps : EReal := Scalar.ofBits (F := Ideal) .f32 0x3727C5AC#32

/-- Over any blocks and arrays: if row `p` of the two row blocks is row `r` of the two arrays and the parameter blocks are the
    parameters, the output block at `(p, q)` is `update` at `(r, q)`. -/
theorem point_eq (A N : S25000x512.Idx → EReal) (W₁ : S1024x512.Idx → EReal) (b₁ : S512.Idx → EReal) (W₂ : S512x512.Idx → EReal)
    (b₂ γ β : S512.Idx → EReal)
    (x0 x1 : Vec Ideal S1000x512 .f32) (x2 : Vec Ideal S1024x512 .bf16) (x3 : Vec Ideal S1x512 .f32)
    (x4 : Vec Ideal S512x512 .bf16) (x5 x6 x7 : Vec Ideal S1x512 .f32) (p : Fin 1000) (q : Fin 512) (r : Fin 25000)
    (h0 : ∀ k : Fin 512, x0 (ix2 p k) = A (ix2 r k)) (h1 : ∀ k : Fin 512, x1 (ix2 p k) = N (ix2 r k))
    (h2 : ∀ (k : Fin 1024) (j : Fin 512), x2 (ix2 k j) = W₁ (ix2 k j)) (h3 : ∀ j : Fin 512, x3 (ix2 (0 : Fin 1) j) = b₁ (ix1 j))
    (h4 : ∀ k j : Fin 512, x4 (ix2 k j) = W₂ (ix2 k j)) (h5 : ∀ j : Fin 512, x5 (ix2 (0 : Fin 1) j) = b₂ (ix1 j))
    (h6 : ∀ j : Fin 512, x6 (ix2 (0 : Fin 1) j) = γ (ix1 j)) (h7 : ∀ j : Fin 512, x7 (ix2 (0 : Fin 1) j) = β (ix1 j)) :
    out0_8 x0 x1 x2 x3 x4 x5 x6 x7 (ix2 p q) = update c512 eps A N W₁ b₁ W₂ b₂ γ β (ix2 r q) := by
  rw [Block.out_at, update_ix2]
  simp only [h0, h1, h2, h3, h4, h5, h6, h7]

/-- What the result array holds after the run. -/
abbrev result (c : Dev nD) : Buf (Elt Ideal) ((c : Thread nD τ).loc main_v9) :=
  update c512 eps (agg m c) (m ((c : Thread nD τ).loc main_arg1)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- WHAT POINT `t` WRITES BACK is block `t` of `result`. -/
theorem flushed_eq (c : Dev nD) (t : Fin cfg0.N) :
    (dats m 0 c).flushed 8 t = ((cfg0.win 8).blk t).view.read (Elt Ideal) (result m c) := by
  rw [Value.flushed8]
  obtain ⟨-, -, -, -, -, -, -, -, ⟨o0, o1⟩⟩ := idx_facts t
  have ht := point_lt t
  funext y
  have hy0 : (y 0).val < 1000 := (y 0).isLt
  have hy1 : (y 1).val < 512 := (y 1).isLt
  have ey : y = ix2 (⟨(y 0).val, hy0⟩ : Fin 1000) (⟨(y 1).val, hy1⟩ : Fin 512) := funext fun a => by
    match a with
    | ⟨0, _⟩ => rfl
    | ⟨1, _⟩ => rfl
  have ee : ((cfg0.win 8).blk t).view.emb y = ix2 (⟨1000 * t.val + (y 0).val, by omega⟩ : Fin 25000) (⟨(y 1).val, hy1⟩ : Fin 512) :=
    funext fun a => Fin.ext (by
      match a with
      | ⟨0, _⟩ => show win0_8.index t (0 : Fin 2) * 1000 + 1 * (y 0).val = 1000 * t.val + (y 0).val; omega
      | ⟨1, _⟩ => show win0_8.index t (1 : Fin 2) * 512 + 1 * (y 1).val = (y 1).val; omega)
  show out0_8 (iblk m c 0 t) (iblk m c 1 t) (iblk m c 2 t) (iblk m c 3 t) (iblk m c 4 t) (iblk m c 5 t) (iblk m c 6 t) (iblk m c 7 t) y
    = result m c (((cfg0.win 8).blk t).view.emb y)
  refine (congrArg (out0_8 (iblk m c 0 t) (iblk m c 1 t) (iblk m c 2 t) (iblk m c 3 t) (iblk m c 4 t) (iblk m c 5 t) (iblk m c 6 t) (iblk m c 7 t)) ey).trans ?_
  refine Eq.trans ?_ (congrArg (result m c) ee.symm)
  exact point_eq (agg m c) (m ((c : Thread nD τ).loc main_arg1)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t)
    ⟨(y 0).val, hy0⟩ ⟨(y 1).val, hy1⟩ ⟨1000 * t.val + (y 0).val, by omega⟩
    (fun k => agg_blk m c t ⟨(y 0).val, hy0⟩ k ⟨1000 * t.val + (y 0).val, by omega⟩ rfl)
    (fun k => nfeat_blk m c t ⟨(y 0).val, hy0⟩ k ⟨1000 * t.val + (y 0).val, by omega⟩ rfl)
    (w1_blk m c t) (b1_blk m c t) (w2_blk m c t) (b2_blk m c t) (gamma_blk m c t) (beta_blk m c t)

/-! ## The blocks cover the array -/

/-- An index is in point `t`'s block iff each coordinate is in the block's range on its axis. -/
theorem mem_blk (t : Fin cfg0.N) (i : S25000x512.Idx) :
    i ∈ ((cfg0.win 8).blk t).view.set ↔ ∀ a : Fin 2, win0_8.index t a * S1000x512.size a ≤ (i a).val
      ∧ (i a).val < win0_8.index t a * S1000x512.size a + S1000x512.size a := by
  show i ∈ ((View.whole main_v9).slice (win0_8.rect t)).set ↔ _
  rw [View.set_slice_whole, Rect.mem_set_unit]
  exact Iff.rfl

/-- Node `r` is in the block of point `r / 1000`. -/
theorem cover (i : S25000x512.Idx) : ∃ t : Fin cfg0.N, (cfg0.win 8).flush t = true ∧ i ∈ ((cfg0.win 8).blk t).view.set := by
  have hi0 : (i 0).val < 25000 := (i 0).isLt
  have hi1 : (i 1).val < 512 := (i 1).isLt
  have hN : cfg0.N = 25 := N_0
  let t : Fin cfg0.N := ⟨(i 0).val / 1000, by rw [hN]; omega⟩
  obtain ⟨-, -, -, -, -, -, -, -, ⟨o0, o1⟩⟩ := idx_facts t
  have tv : t.val = (i 0).val / 1000 := rfl
  refine ⟨t, flush0_8 t, ?_⟩
  rw [mem_blk]
  intro a
  match a with
  | ⟨0, _⟩ =>
    show win0_8.index t (0 : Fin 2) * 1000 ≤ (i 0).val ∧ (i 0).val < win0_8.index t (0 : Fin 2) * 1000 + 1000
    omega
  | ⟨1, _⟩ =>
    show win0_8.index t (1 : Fin 2) * 512 ≤ (i 1).val ∧ (i 1).val < win0_8.index t (1 : Fin 2) * 512 + 512
    omega

/-! ## The array after the run, and the run -/

theorem final (c : Dev nD) : (dats m 0 c).arrAt 8 cfg0.N = result m c :=
  (dats m 0 c).arrAt_eq_of_cover 8 (result m c) (fun t _ => flushed_eq m c t) cover

/-- Every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Nodes

end
-- ==== Proof.RefValue.lean ====
/-
  The reference program's result, entry by entry, is `Cert.NodeMlp.update`.

  The reference concatenates each node's aggregated row with its own row into a row of 1024 and contracts it with the whole
  first weight: by `sum_halves` that sum over 1024 is the sum over the aggregated half against the weight's upper rows plus
  the sum over the node's own half against its lower rows — the concatenation read at a column below 512 is the aggregated
  entry, at `512 + k` the node's own. Its activation is spelt `z · (1 / (1 + exp (−z)))`, which is `z · logistic z`
  once the constant's pattern is read as the number one. Its reductions start from the zero pattern, which adds nothing.
  Everything else is the same operation on both sides. The aggregated array itself (a scatter-add of the edge features) is
  never opened: it enters `update` as one array.
-/
import proofs.«153240_j42777874268720_2_alg».proof.Proof.Gen.ReferenceIdeal.Read
import proofs.«153240_j42777874268720_2_alg».proof.Proof.NodeMlp
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.NodeMlp

variable (x0 : (⟨S400000x512, .f32⟩ : BufTy).Contents (Elt Ideal)) (x1 : (⟨S25000x512, .f32⟩ : BufTy).Contents (Elt Ideal))
  (x2 : (⟨S400000, .i32⟩ : BufTy).Contents (Elt Ideal)) (x3 : (⟨S1024x512, .f32⟩ : BufTy).Contents (Elt Ideal))
  (x4 : (⟨S512, .f32⟩ : BufTy).Contents (Elt Ideal)) (x5 : (⟨S512x512, .f32⟩ : BufTy).Contents (Elt Ideal))
  (x6 x7 x8 : (⟨S512, .f32⟩ : BufTy).Contents (Elt Ideal))

/-- The divisor of the two means, as the extended real its pattern denotes. -/
abbrev c512 : EReal := Ideal.ofBits .f32 0x44000000#32
/-- The constant added to the variance. -/
abbrev eps : EReal := Ideal.ofBits .f32 0x3727C5AC#32

/-- The pattern of `1.0` denotes the number one. -/
theorem one_f32 : Ideal.ofBits .f32 0x3F800000#32 = 1 := IdealRules.sign_bit.ideal_onePat .f32

/-! ## The layout stages at an entry -/

/-- The concatenated row at a column of its first half is the aggregated entry. -/
theorem cat_left (a n : (⟨S25000x512, .f32⟩ : BufTy).Contents (Elt Ideal)) (r : Fin 25000) (k : Fin 512) :
    concatenate S25000x1024 1 [⟨S25000x512, a⟩, ⟨S25000x512, n⟩] concatenates_S25000x512_S25000x512_S25000x1024_d1 (ix2 r (upper k))
      = a (ix2 r k) :=
  concatenate_pair_apply_left 1 a n _ (ix2 r (upper k)) rfl (ix2 r k) (fun b => by
    match b with
    | ⟨0, _⟩ => rfl
    | ⟨1, _⟩ => rfl)

/-- At column `512 + k` it is the node's own entry `k`. -/
theorem cat_right (a n : (⟨S25000x512, .f32⟩ : BufTy).Contents (Elt Ideal)) (r : Fin 25000) (k : Fin 512) :
    concatenate S25000x1024 1 [⟨S25000x512, a⟩, ⟨S25000x512, n⟩] concatenates_S25000x512_S25000x512_S25000x1024_d1 (ix2 r (lower k))
      = n (ix2 r k) :=
  concatenate_pair_apply_right 1 a n _ (ix2 r (lower k)) rfl rfl (ix2 r k) (fun b hb => by
    match b with
    | ⟨0, _⟩ => rfl
    | ⟨1, _⟩ => exact absurd rfl hb) (by show k.val + 512 = 512 + k.val; omega)

/-- A parameter vector repeated for every node, at `(r, q)`: its entry `q`. The four parameter vectors go through the same two stages. -/
theorem bias1_at (r : Fin 25000) (q : Fin 512) : val_main_v6 (F := Ideal) x4 (ix2 r q) = x4 (ix1 q) :=
  (val_main_v6_apply x4 (ix2 r q)).trans ((val_main_v5_apply x4 _).trans (congrArg x4 (funext fun a => Fin.ext (by
    match a with
    | ⟨0, _⟩ => rfl))))
theorem bias2_at (r : Fin 25000) (q : Fin 512) : val_main_v11 (F := Ideal) x6 (ix2 r q) = x6 (ix1 q) :=
  (val_main_v11_apply x6 (ix2 r q)).trans ((val_main_v10_apply x6 _).trans (congrArg x6 (funext fun a => Fin.ext (by
    match a with
    | ⟨0, _⟩ => rfl))))
theorem gamma_at (r : Fin 25000) (q : Fin 512) : val_main_v32 (F := Ideal) x7 (ix2 r q) = x7 (ix1 q) :=
  (val_main_v32_apply x7 (ix2 r q)).trans ((val_main_v31_apply x7 _).trans (congrArg x7 (funext fun a => Fin.ext (by
    match a with
    | ⟨0, _⟩ => rfl))))
theorem beta_at (r : Fin 25000) (q : Fin 512) : val_main_v35 (F := Ideal) x8 (ix2 r q) = x8 (ix1 q) :=
  (val_main_v35_apply x8 (ix2 r q)).trans ((val_main_v34_apply x8 _).trans (congrArg x8 (funext fun a => Fin.ext (by
    match a with
    | ⟨0, _⟩ => rfl))))

/-! ## The first layer and the activation -/

/-- The aggregated edge features, one array. -/
abbrev agg : (⟨S25000x512, .f32⟩ : BufTy).Contents (Elt Ideal) := val_main_v2 (F := Ideal) x0 x2

/-- A node's first-layer pre-activation. -/
abbrev pre (r : Fin 25000) : Fin 512 → EReal :=
  preact (fun k => agg x0 x2 (ix2 r k)) (fun k => x1 (ix2 r k)) (fun k j => x3 (ix2 (upper k) j)) (fun k j => x3 (ix2 (lower k) j))
    (fun j => x4 (ix1 j))

theorem first_at (r : Fin 25000) (j : Fin 512) : val_main_v7 (F := Ideal) x0 x1 x2 x3 x4 (ix2 r j) = pre x0 x1 x2 x3 x4 r j := by
  rw [val_main_v7_apply, val_main_v4_apply, bias1_at, sum_halves]
  show (∑ k : Fin 512, _ + ∑ k : Fin 512, _) + x4 (ix1 j)
    = (∑ k : Fin 512, agg x0 x2 (ix2 r k) * x3 (ix2 (upper k) j) + ∑ k : Fin 512, x1 (ix2 r k) * x3 (ix2 (lower k) j)) + x4 (ix1 j)
  refine congrArg₂ (· + ·) (congrArg₂ (· + ·) (Finset.sum_congr rfl fun k _ => ?_) (Finset.sum_congr rfl fun k _ => ?_)) rfl
  · have el : lidx_main_v4 (ix2 r j) (upper k) = ix2 r (upper k) := funext fun a => Fin.ext (by
      match a with
      | ⟨0, _⟩ => rfl
      | ⟨1, _⟩ => rfl)
    have er : ridx_main_v4 (ix2 r j) (upper k) = ix2 (upper k) j := funext fun a => Fin.ext (by
      match a with
      | ⟨0, _⟩ => rfl
      | ⟨1, _⟩ => rfl)
    rw [el, er]
    exact congrArg (· * x3 (ix2 (upper k) j)) (cat_left (agg x0 x2) x1 r k)
  · have el : lidx_main_v4 (ix2 r j) (lower k) = ix2 r (lower k) := funext fun a => Fin.ext (by
      match a with
      | ⟨0, _⟩ => rfl
      | ⟨1, _⟩ => rfl)
    have er : ridx_main_v4 (ix2 r j) (lower k) = ix2 (lower k) j := funext fun a => Fin.ext (by
      match a with
      | ⟨0, _⟩ => rfl
      | ⟨1, _⟩ => rfl)
    rw [el, er]
    exact congrArg (· * x3 (ix2 (lower k) j)) (cat_right (agg x0 x2) x1 r k)

/-- The activation: the reference's spelling of the logistic function is the logistic function. -/
theorem act_at (r : Fin 25000) (k : Fin 512) :
    val_main_v8 (F := Ideal) x0 x1 x2 x3 x4 (ix2 r k) = silu (pre x0 x1 x2 x3 x4 r k) := by
  rw [val_main_v8_apply, val_main_call0_v5_apply, val_main_call0_v4_apply, val_main_call0_cst_0_apply, val_main_call0_v3_apply,
    val_main_call0_v2_apply, val_main_call0_cst_apply, val_main_call0_v1_apply, val_main_call0_v0_apply, first_at]
  simp only [Ideal.mulf_def, Ideal.hostDivf_def, Ideal.addf_def, Ideal.hostUnary_exp_def, Ideal.hostNegf_def, Ideal.negf_def,
    Ideal.ofBits_def, one_f32]
  rfl

/-! ## The second layer and the normalisation -/

/-- A node's second-layer output. -/
abbrev out2 (r : Fin 25000) : Fin 512 → EReal :=
  second (pre x0 x1 x2 x3 x4 r) (fun k j => x5 (ix2 k j)) (fun j => x6 (ix1 j))

theorem second_at (r : Fin 25000) (j : Fin 512) :
    val_main_v12 (F := Ideal) x0 x1 x2 x3 x4 x5 x6 (ix2 r j) = out2 x0 x1 x2 x3 x4 x5 x6 r j := by
  rw [val_main_v12_apply, val_main_v9_apply, bias2_at]
  show (∑ k : Fin 512, _) + x6 (ix1 j) = (∑ k : Fin 512, silu (pre x0 x1 x2 x3 x4 r k) * x5 (ix2 k j)) + x6 (ix1 j)
  refine congrArg₂ (· + ·) (Finset.sum_congr rfl fun k _ => ?_) rfl
  have el : lidx_main_v9 (ix2 r j) k = ix2 r k := funext fun a => Fin.ext (by
    match a with
    | ⟨0, _⟩ => rfl
    | ⟨1, _⟩ => rfl)
  have er : ridx_main_v9 (ix2 r j) k = ix2 k j := funext fun a => Fin.ext (by
    match a with
    | ⟨0, _⟩ => rfl
    | ⟨1, _⟩ => rfl)
  rw [el, er, act_at]

/-- The row mean, kept as a column. -/
theorem mean_at (r : Fin 25000) :
    val_main_v16 (F := Ideal) x0 x1 x2 x3 x4 x5 x6 (ix2 r (0 : Fin 1)) = mean c512 (out2 x0 x1 x2 x3 x4 x5 x6 r) := by
  rw [val_main_v16_apply, val_main_v14_apply, val_main_v15_apply, val_main_cst_1_apply]
  have e : idx_main_v14 (ix2 r (0 : Fin 1)) = ix1 r := funext fun a => Fin.ext (by
    match a with
    | ⟨0, _⟩ => rfl)
  rw [e, val_main_v13_apply, val_main_cst_0_apply]
  show Ideal.div (Ideal.ofBits .f32 0x00000000#32 + ∑ k : Fin 512, _) c512 = Ideal.div (∑ j : Fin 512, out2 x0 x1 x2 x3 x4 x5 x6 r j) c512
  rw [Ideal.ofBits_zero_f32, zero_add]
  refine congrArg (Ideal.div · c512) (Finset.sum_congr rfl fun k _ => ?_)
  have ek : idx_main_v13 (ix1 r) k = ix2 r k := funext fun a => Fin.ext (by
    match a with
    | ⟨0, _⟩ => rfl
    | ⟨1, _⟩ => rfl)
  rw [ek, second_at]

/-- An entry less its row's mean; the reference computes it twice, with the same operations. -/
theorem centred18_at (r : Fin 25000) (j : Fin 512) :
    val_main_v18 (F := Ideal) x0 x1 x2 x3 x4 x5 x6 (ix2 r j) = centred c512 (out2 x0 x1 x2 x3 x4 x5 x6 r) j := by
  rw [val_main_v18_apply, val_main_v17_apply, second_at]
  have e : idx_main_v17 (ix2 r j) = ix2 r (0 : Fin 1) := funext fun a => Fin.ext (by
    match a with
    | ⟨0, _⟩ => rfl
    | ⟨1, _⟩ => rfl)
  rw [e, mean_at]
  rfl
theorem centred25_at (r : Fin 25000) (j : Fin 512) :
    val_main_v25 (F := Ideal) x0 x1 x2 x3 x4 x5 x6 (ix2 r j) = centred c512 (out2 x0 x1 x2 x3 x4 x5 x6 r) j := by
  rw [val_main_v25_apply, val_main_v24_apply, second_at]
  have e : idx_main_v24 (ix2 r j) = ix2 r (0 : Fin 1) := funext fun a => Fin.ext (by
    match a with
    | ⟨0, _⟩ => rfl
    | ⟨1, _⟩ => rfl)
  rw [e, mean_at]
  rfl

/-- The row variance, kept as a column. -/
theorem variance_at (r : Fin 25000) :
    val_main_v23 (F := Ideal) x0 x1 x2 x3 x4 x5 x6 (ix2 r (0 : Fin 1))
      = mean c512 (fun l => centred c512 (out2 x0 x1 x2 x3 x4 x5 x6 r) l * centred c512 (out2 x0 x1 x2 x3 x4 x5 x6 r) l) := by
  rw [val_main_v23_apply, val_main_v21_apply, val_main_v22_apply, val_main_cst_3_apply]
  have e : idx_main_v21 (ix2 r (0 : Fin 1)) = ix1 r := funext fun a => Fin.ext (by
    match a with
    | ⟨0, _⟩ => rfl)
  rw [e, val_main_v20_apply, val_main_cst_2_apply]
  show Ideal.div (Ideal.ofBits .f32 0x00000000#32 + ∑ k : Fin 512, _) c512 = Ideal.div (∑ l : Fin 512, _) c512
  rw [Ideal.ofBits_zero_f32, zero_add]
  refine congrArg (Ideal.div · c512) (Finset.sum_congr rfl fun k _ => ?_)
  have ek : idx_main_v20 (ix1 r) k = ix2 r k := funext fun a => Fin.ext (by
    match a with
    | ⟨0, _⟩ => rfl
    | ⟨1, _⟩ => rfl)
  rw [ek, val_main_v19_apply, centred18_at]
  rfl

/-- THE REFERENCE'S RESULT is `update` of the aggregated array, the node features and the parameters. -/
theorem result_eq :
    val_main_v37 (F := Ideal) x0 x1 x2 x3 x4 x5 x6 x7 x8 = update c512 eps (agg x0 x2) x1 x3 x4 x5 x6 x7 x8 := by
  funext i
  obtain ⟨r, q, rfl⟩ : ∃ (r : Fin 25000) (q : Fin 512), i = ix2 r q := ⟨i 0, i 1, eq_ix2 i⟩
  rw [update_ix2, val_main_v37_apply, val_main_v36_apply, val_main_v33_apply, val_main_v30_apply, val_main_v29_apply, beta_at, gamma_at,
    centred25_at]
  have e : idx_main_v29 (ix2 r q) = ix2 r (0 : Fin 1) := funext fun a => Fin.ext (by
    match a with
    | ⟨0, _⟩ => rfl
    | ⟨1, _⟩ => rfl)
  rw [e, val_main_v28_apply, val_main_v27_apply, variance_at, val_main_v26_apply, val_main_cst_4_apply]
  rfl

end Cert.ReferenceIdeal.RefValue

end
-- ==== Proof.lean ====
/-
  The node update of one message-passing layer: a kernel that works on blocks of 1000 nodes against a reference that works
  on all 25000 at once.

  Both programs first sum each node's incoming edge features (the same scatter-add, on the host in both) and then apply,
  node by node, a two-layer perceptron on the aggregated and the node's own features, a normalisation over the 512 outputs,
  and a residual connection. They differ in three spellings, none of which changes the value on the extended reals: the
  kernel contracts the aggregated row and the node's own row with the two halves of the first weight separately where the
  reference contracts their concatenation with the whole weight (a sum over 1024 indices is the sum over its halves); the
  kernel applies the logistic function where the reference writes `1 / (1 + exp (−z))`; and the kernel rounds the matrix
  operands to a narrower format, which is the identity on extended reals. No step uses that the inputs are finite.

  `Cert.NodeMlp` states the function; `Cert.KernelIdeal.Nodes.run` says the kernel's result array ends holding it (the body
  read entry by entry, each grid point's block a block of the function, the 25 blocks covering the array);
  `Cert.ReferenceIdeal.RefValue.result_eq` says the reference's result is the same function. The frames are the generated
  ones; the reference's is its generated run with the result dropped. The first result of both programs is the edge-feature
  argument itself, unchanged.
-/
import proofs.«153240_j42777874268720_2_alg».proof.Defs
import proofs.«153240_j42777874268720_2_alg».proof.Proof.Gen.Kernel
import proofs.«153240_j42777874268720_2_alg».proof.Proof.Gen.Kernel.Skeleton
import proofs.«153240_j42777874268720_2_alg».proof.Proof.Gen.Kernel.Launch
import proofs.«153240_j42777874268720_2_alg».proof.Proof.Gen.Kernel.Points
import proofs.«153240_j42777874268720_2_alg».proof.Proof.Gen.Kernel.Frame
import proofs.«153240_j42777874268720_2_alg».proof.Proof.Gen.KernelIdeal
import proofs.«153240_j42777874268720_2_alg».proof.Proof.Gen.KernelIdeal.Skeleton
import proofs.«153240_j42777874268720_2_alg».proof.Proof.Gen.KernelIdeal.Launch
import proofs.«153240_j42777874268720_2_alg».proof.Proof.Gen.KernelIdeal.Points
import proofs.«153240_j42777874268720_2_alg».proof.Proof.Gen.KernelIdeal.Frame
import proofs.«153240_j42777874268720_2_alg».proof.Proof.Gen.ReferenceIdeal
import proofs.«153240_j42777874268720_2_alg».proof.Proof.Gen.Pre_finite_inputs
import proofs.«153240_j42777874268720_2_alg».proof.Proof.Gen.KernelIdeal.Value
import proofs.«153240_j42777874268720_2_alg».proof.Proof.Gen.ReferenceIdeal.Run
import proofs.«153240_j42777874268720_2_alg».proof.Proof.Gen.ReferenceIdeal.Read
import proofs.«153240_j42777874268720_2_alg».proof.Proof.KernelValue
import proofs.«153240_j42777874268720_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments both programs end with the edge features unchanged and the node features at
    `update` of the same arrays: the aggregated array is the same scatter-add of the same arguments on both sides. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.Nodes.result m c, ?_, ?_⟩
  · exact (θ_run Cert.KernelIdeal.defs _ _).mono (fun _ h c => ⟨(h c).2.1, (h c).1, (h c).2⟩) (Cert.KernelIdeal.Nodes.run m ρ)
  · refine (θ_run Cert.ReferenceIdeal.defs _ _).mono (fun _ h c => ⟨(h c).1.trans (hagree c).1, (h c).2.1.trans ?_, (h c).2.2⟩)
      (Cert.ReferenceIdeal.Value.run (F := Ideal) m' ρ')
    rw [Cert.ReferenceIdeal.Read.val_main_v37_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
